-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x2 : Shape := ⟨2, ![50000, 2]⟩
abbrev S1x128 : Shape := ⟨2, ![1, 128]⟩
abbrev S2000x128 : Shape := ⟨2, ![2000, 128]⟩
abbrev S2000x2 : Shape := ⟨2, ![2000, 2]⟩
abbrev S2000x1 : Shape := ⟨2, ![2000, 1]⟩

abbrev nBuf : Space → Nat
  | .hbm => 67
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x2, .f32⟩
  | .hbm, ⟨49, _⟩ => ⟨S1x128, .f32⟩
  | .hbm, ⟨50, _⟩ => ⟨S50000x128, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .bf16⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x2, .f32⟩
  | .local _ .vmem, ⟨3, _⟩ => ⟨S2000x2, .f32⟩
  | .local _ .vmem, ⟨4, _⟩ => ⟨S128x128, .f32⟩
  | .local _ .vmem, ⟨5, _⟩ => ⟨S1x128, .f32⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  concatenates_S50000x1_S50000x1_S50000x2_d1 : Shape.Concatenates [S50000x1, S50000x1] S50000x2 1
  shapeCasts_S128_S1x128 : S128.ShapeCasts S1x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2.size a ≤ S50000x2.size a
  hwx0_1 : ∀ i : grid0.Coords, EltTy.bits .f32 = 32 ∨ (Rect.block (s := S50000x2) S2000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's program run to its end with the RESULT array named: every weakly fair execution terminates,
  nothing faulting, with the result array holding what the last region's write-backs leave (the contents `W8` of the
  fold of buffer contents through the host stretches and the two regions) and every argument array unchanged. The
  argument is the one that gives the frame; only the reading of the final state is longer by one buffer.
-/
import proofs.«103812_j82755429859753_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array read off the final state. -/
theorem run : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.KernelShared.lean ====
/-
  The host pieces of the kernel's program, named once: the per-node factor `1 / sqrt (max 1 (edge count))`, a vector
  of per-node factors viewed as a column, a bias vector viewed as a row, and the aggregation along the edges of a
  matrix stored in the narrow float format (row `src e`, a negative index counted from the end, widened and added into
  row `dst e`, over all edges `e`).
-/
import proofs.«103812_j82755429859753_2_alg».proof.Proof.Gen.KernelIdeal
import Idealize.ShloMosaic.PureOps.Ideal

noncomputable section

namespace Cert.KernelIdeal.HostPieces

open Cert.KernelIdeal Cert.KernelIdeal.Gen Idealize.ShloMosaic

/-- One over the square root of each node's edge count (counted along `idx`), the count clamped below at one. -/
def invK (idx : IVec S800000 32) : FVec Ideal S50000 .f32 :=
  Host.rsqrt (maximumf (broadcastInDim S50000 ![] bcast_S_S50000 (id (constant (F := Ideal) S_ .f32 0x3F800000#32)))
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32))))

/-- A vector of per-node factors as a one-column matrix. -/
def colK (s : FVec Ideal S50000 .f32) : FVec Ideal S50000x1 .f32 := shapeCast S50000x1 s shapeCasts_S50000_S50000x1

/-- A bias vector as a one-row matrix. -/
def rowK (b : FVec Ideal S128 .f32) : FVec Ideal S1x128 .f32 := shapeCast S1x128 b shapeCasts_S128_S1x128

/-- The two factor columns side by side: incoming first, outgoing second. -/
def pairK (sIn sOut : FVec Ideal S50000 .f32) : FVec Ideal S50000x2 .f32 :=
  concatenate S50000x2 1 [⟨S50000x1, colK sIn⟩, ⟨S50000x1, colK sOut⟩] concatenates_S50000x1_S50000x1_S50000x2_d1

/-- The out-scaled features as the first aggregation gathers them: row `r` of `x` times `s r`, narrowed. -/
def scaledK (x : FVec Ideal S50000x128 .f32) (s : FVec Ideal S50000 .f32) : FVec Ideal S50000x128 .bf16 :=
  truncf .bf16 (mulf x (broadcastInDim S50000x128 ![0, 1] bcast_S50000x1_S50000x128_0_1 (colK s))) bitsLt_bf16_f32

/-- Sum, into row `dst e`, of row `src e` of `xs` (widened) over all edges `e`. -/
def aggK (src dst : IVec S800000 32) (xs : FVec Ideal S50000x128 .bf16) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32 (Host.gather gather_S50000x128_S800000x1_S800000x128_1_0_n_n_0_1_1128 xs
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) bitsLt_bf16_f32)

end Cert.KernelIdeal.HostPieces

end
-- ==== Proof.KernelHostOps.lean ====
/-
  The host operations of the kernel's program, one stretch at a time, over any contents `F` of the buffers when the
  stretch begins: which buffer ends holding which operation of which earlier buffers, and that no stretch writes an
  argument. Five stretches precede the first region (edge counts along the source indices; their clamp at one; the
  outgoing factor column and the edge counts along the destination indices; their clamp; then the incoming factor
  column, the out-scaled features aggregated along the edges, the two columns side by side and the first bias as a row);
  one stretch lies between the regions (the first region's result aggregated along the edges, the second bias as a row).
-/
import proofs.«103812_j82755429859753_2_alg».proof.Proof.Gen.KernelIdeal.Launch
import proofs.«103812_j82755429859753_2_alg».proof.Proof.KernelShared
import Idealize.ShloMosaic.Lib.StableHlo.Run

set_option maxRecDepth 16384

noncomputable section

namespace Cert.KernelIdeal.HostOps

open Cert.KernelIdeal Cert.KernelIdeal.Gen Cert.KernelIdeal.HostPieces
open Idealize.ShloMosaic Idealize.ShloMosaic.TcCoe Idealize.SL.Sem Idealize.ShloMosaic.StableHlo

/-- The number of edges at each node, counted along `idx`. -/
def cntK (idx : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- A count vector clamped below at the scalar `one`. -/
def clipK (one : FVec Ideal S_ .f32) (cnt : FVec Ideal S50000 .f32) : FVec Ideal S50000 .f32 :=
  maximumf (broadcastInDim S50000 ![] bcast_S_S50000 (id one)) cnt

/-- The scalar one. -/
def oneK : FVec Ideal S_ .f32 := constant (F := Ideal) S_ .f32 0x3F800000#32

/-- The per-node factor is one over the square root of the clamped count. -/
theorem invK_eq (idx : IVec S800000 32) : invK idx = Host.rsqrt (clipK oneK (cntK idx)) := rfl

/-- Two buffer contents agree on the seven argument arrays. -/
def SameArgs (F G : Valuation τ sig (Elt Ideal)) : Prop :=
  G (Proc.devRef .tc main_arg0) = F (Proc.devRef .tc main_arg0)
  ∧ G (Proc.devRef .tc main_arg1) = F (Proc.devRef .tc main_arg1)
  ∧ G (Proc.devRef .tc main_arg2) = F (Proc.devRef .tc main_arg2)
  ∧ G (Proc.devRef .tc main_arg3) = F (Proc.devRef .tc main_arg3)
  ∧ G (Proc.devRef .tc main_arg4) = F (Proc.devRef .tc main_arg4)
  ∧ G (Proc.devRef .tc main_arg5) = F (Proc.devRef .tc main_arg5)
  ∧ G (Proc.devRef .tc main_arg6) = F (Proc.devRef .tc main_arg6)

theorem SameArgs.trans {F G H : Valuation τ sig (Elt Ideal)} (h1 : SameArgs F G) (h2 : SameArgs G H) : SameArgs F H :=
  ⟨h2.1.trans h1.1, h2.2.1.trans h1.2.1, h2.2.2.1.trans h1.2.2.1, h2.2.2.2.1.trans h1.2.2.2.1,
    h2.2.2.2.2.1.trans h1.2.2.2.2.1, h2.2.2.2.2.2.1.trans h1.2.2.2.2.2.1, h2.2.2.2.2.2.2.trans h1.2.2.2.2.2.2⟩

/-! ## No stretch writes an argument -/

theorem same_hostOps0 (F : Valuation τ sig (Elt Ideal)) : SameArgs F (after hostOps0 F) := by
  refine ⟨?_, ?_, ?_, ?_, ?_, ?_, ?_⟩ <;> after_results
theorem same_hostOps0_1 (F : Valuation τ sig (Elt Ideal)) : SameArgs F (after hostOps0_1 F) := by
  refine ⟨?_, ?_, ?_, ?_, ?_, ?_, ?_⟩ <;> after_results
theorem same_hostOps0_2 (F : Valuation τ sig (Elt Ideal)) : SameArgs F (after hostOps0_2 F) := by
  refine ⟨?_, ?_, ?_, ?_, ?_, ?_, ?_⟩ <;> after_results
theorem same_hostOps0_3 (F : Valuation τ sig (Elt Ideal)) : SameArgs F (after hostOps0_3 F) := by
  refine ⟨?_, ?_, ?_, ?_, ?_, ?_, ?_⟩ <;> after_results
set_option maxHeartbeats 2000000 in
theorem same_hostOps0_4 (F : Valuation τ sig (Elt Ideal)) : SameArgs F (after hostOps0_4 F) := by
  refine ⟨?_, ?_, ?_, ?_, ?_, ?_, ?_⟩ <;> after_results
set_option maxHeartbeats 2000000 in
theorem same_hostOps1 (F : Valuation τ sig (Elt Ideal)) : SameArgs F (after hostOps1 F) := by
  refine ⟨?_, ?_, ?_, ?_, ?_, ?_, ?_⟩ <;> after_results

/-! ## What each stretch computes -/

/-- First stretch: the edge counts along the source indices, and the scalar one. -/
theorem s0 (F : Valuation τ sig (Elt Ideal)) :
    after hostOps0 F (Proc.devRef .tc main_v3) = cntK (F (Proc.devRef .tc main_arg1))
    ∧ after hostOps0 F (Proc.devRef .tc main_cst_1) = oneK := by
  refine ⟨?_, ?_⟩ <;> after_results <;> rfl

/-- Second stretch: the clamp of the source counts. -/
theorem s1 (F : Valuation τ sig (Elt Ideal)) :
    after hostOps0_1 F (Proc.devRef .tc main_v4) = clipK (F (Proc.devRef .tc main_cst_1)) (F (Proc.devRef .tc main_v3)) := by
  after_results
  rfl

/-- Third stretch: the outgoing factor column, the edge counts along the destination indices, the scalar one. -/
theorem s2 (F : Valuation τ sig (Elt Ideal)) :
    after hostOps0_2 F (Proc.devRef .tc main_v6) = colK (Host.rsqrt (F (Proc.devRef .tc main_v4)))
    ∧ after hostOps0_2 F (Proc.devRef .tc main_v10) = cntK (F (Proc.devRef .tc main_arg2))
    ∧ after hostOps0_2 F (Proc.devRef .tc main_cst_4) = oneK := by
  refine ⟨?_, ?_, ?_⟩ <;> after_results <;> rfl

/-- Fourth stretch: the clamp of the destination counts; the outgoing factor column is not written. -/
theorem s3 (F : Valuation τ sig (Elt Ideal)) :
    after hostOps0_3 F (Proc.devRef .tc main_v11) = clipK (F (Proc.devRef .tc main_cst_4)) (F (Proc.devRef .tc main_v10))
    ∧ after hostOps0_3 F (Proc.devRef .tc main_v6) = F (Proc.devRef .tc main_v6) := by
  refine ⟨?_, ?_⟩ <;> after_results <;> rfl

/-- Fifth stretch: the incoming factor column. -/
theorem s4_v13 (F : Valuation τ sig (Elt Ideal)) :
    after hostOps0_4 F (Proc.devRef .tc main_v13) = colK (Host.rsqrt (F (Proc.devRef .tc main_v11))) := by
  after_results
  rfl

set_option maxHeartbeats 2000000 in
/-- Fifth stretch: the out-scaled features aggregated along the edges. -/
theorem s4_v27 (F : Valuation τ sig (Elt Ideal)) :
    after hostOps0_4 F (Proc.devRef .tc main_v27)
        = aggK (F (Proc.devRef .tc main_arg1)) (F (Proc.devRef .tc main_arg2))
            (truncf .bf16 (mulf (F (Proc.devRef .tc main_arg0))
              (broadcastInDim S50000x128 ![0, 1] bcast_S50000x1_S50000x128_0_1 (F (Proc.devRef .tc main_v6)))) bitsLt_bf16_f32) := by
  after_results_simp
  rfl

set_option maxHeartbeats 2000000 in
/-- Fifth stretch: the two factor columns side by side. -/
theorem s4_v28 (F : Valuation τ sig (Elt Ideal)) :
    after hostOps0_4 F (Proc.devRef .tc main_v28)
        = concatenate S50000x2 1 [⟨S50000x1, colK (Host.rsqrt (F (Proc.devRef .tc main_v11)))⟩, ⟨S50000x1, F (Proc.devRef .tc main_v6)⟩]
            concatenates_S50000x1_S50000x1_S50000x2_d1 := by
  after_results
  rfl

/-- Fifth stretch: the first bias as a row. -/
theorem s4_v29 (F : Valuation τ sig (Elt Ideal)) :
    after hostOps0_4 F (Proc.devRef .tc main_v29) = rowK (F (Proc.devRef .tc main_arg4)) := by
  after_results
  rfl

set_option maxHeartbeats 2000000 in
/-- The stretch between the regions: the first region's result aggregated along the edges, the second bias as a row;
    the incoming factor column is not written. -/
theorem s5 (F : Valuation τ sig (Elt Ideal)) :
    after hostOps1 F (Proc.devRef .tc main_v41)
        = aggK (F (Proc.devRef .tc main_arg1)) (F (Proc.devRef .tc main_arg2)) (F (Proc.devRef .tc main_v30))
    ∧ after hostOps1 F (Proc.devRef .tc main_v42) = rowK (F (Proc.devRef .tc main_arg6))
    ∧ after hostOps1 F (Proc.devRef .tc main_v13) = F (Proc.devRef .tc main_v13) := by
  refine ⟨?_, ?_, ?_⟩ <;> after_results_simp <;> rfl

end Cert.KernelIdeal.HostOps

end
-- ==== Proof.LibHostForms.lean ====
/-
  Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«103812_j82755429859753_2_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.KernelBody.lean ====
/-
  What the two kernel bodies store, read at one entry `(p, q)` of a 2000 × 128 block, on extended reals (where a change
  of float format is the identity and a matrix product into a zero accumulator is the plain sum over the inner index).

  First layer: `max (∑ k, (msg (p, k) · d (p, 0)) · W (k, q) + b (0, q)) 0 · d (p, 1)`, where `d` is the block's two
  columns of per-node factors. Second layer: `∑ k, (msg (p, k) · d (p, 0)) · W (k, q) + b (0, q)`.
-/
import proofs.«103812_j82755429859753_2_alg».proof.Proof.Gen.KernelIdeal.Skeleton
import proofs.«103812_j82755429859753_2_alg».proof.Proof.LibMatmulForms
import Idealize.ShloMosaic.Lib.ValueLayout

noncomputable section

open scoped BigOperators

namespace Cert.KernelIdeal.Body

open Cert.KernelIdeal Cert.KernelIdeal.Gen Idealize.ShloMosaic Idealize.ShloMosaic.ValueIdx

/-- A column `[a, 1]` repeated along `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer's stored value at `(p, q)`. -/
theorem pay0_apply (v0 : Vec Ideal S2000x2 .f32) (v4 : Vec Ideal S2000x128 .f32) (v9 : Vec Ideal S128x128 .f32)
    (v12 : Vec Ideal S1x128 .f32) (p : Fin 2000) (q : Fin 128) :
    k0_pay1 (F := Ideal) v0 v4 v9 v12 (ix2 p q)
      = max ((∑ k : Fin 128, (v4 (ix2 p k) * v0 (ix2 p (0 : Fin 2))) * v9 (ix2 k q)) + v12 (ix2 (0 : Fin 1) q))
          (Ideal.ofBits .f32 0x00000000#32) * v0 (ix2 p (1 : Fin 2)) := by
  unfold k0_pay1
  simp only [shapeCast_self, HostForms.truncf_fun, HostForms.mulf_fun, HostForms.addf_fun, HostForms.maximumf_fun]
  refine congrArg₂ (· * ·) (congrArg₂ max (congrArg₂ (· + ·) ?_ ?_) rfl) ?_
  · refine (MatmulForms.matmul_zero_mm_apply (φ₁ := .f32) (φ₂ := .f32) dot_S2000x128_S128x128_S2000x128_1_0_0_1_n_n rfl rfl rfl rfl rfl rfl none _ v9 p q).trans
      (Finset.sum_congr rfl fun k _ => ?_)
    refine congrArg (· * v9 (ix2 k q)) (congrArg (v4 (ix2 p k) * ·) ?_)
    exact (broadcastTo_a1_ab_apply _ _ p k).trans (slice2_axis1_apply 0 v0 _ p (0 : Fin 1) (0 : Fin 2) rfl)
  · exact broadcastTo_1b_ab_apply v12 _ p q
  · exact (broadcastTo_a1_ab_apply _ _ p q).trans (slice2_axis1_apply 1 v0 _ p (0 : Fin 1) (1 : Fin 2) rfl)

/-- The second layer's stored value at `(p, q)`. -/
theorem pay1_apply (v0 : Vec Ideal S2000x1 .f32) (v2 : Vec Ideal S2000x128 .f32) (v7 : Vec Ideal S128x128 .f32)
    (v10 : Vec Ideal S1x128 .f32) (p : Fin 2000) (q : Fin 128) :
    k1_pay1 (F := Ideal) v0 v2 v7 v10 (ix2 p q)
      = (∑ k : Fin 128, (v2 (ix2 p k) * v0 (ix2 p (0 : Fin 1))) * v7 (ix2 k q)) + v10 (ix2 (0 : Fin 1) q) := by
  unfold k1_pay1
  simp only [shapeCast_self, HostForms.truncf_fun, HostForms.mulf_fun, HostForms.addf_fun]
  refine congrArg₂ (· + ·) ?_ ?_
  · refine (MatmulForms.matmul_zero_mm_apply (φ₁ := .f32) (φ₂ := .f32) dot_S2000x128_S128x128_S2000x128_1_0_0_1_n_n rfl rfl rfl rfl rfl rfl none _ v7 p q).trans
      (Finset.sum_congr rfl fun k _ => ?_)
    refine congrArg (· * v7 (ix2 k q)) (congrArg (v2 (ix2 p k) * ·) ?_)
    exact broadcastTo_a1_ab_apply _ _ p k
  · exact broadcastTo_1b_ab_apply v10 _ p q

end Cert.KernelIdeal.Body

end
-- ==== Proof.KernelBlocks.lean ====
/-
  From blocks to arrays. Each kernel runs over 25 grid points; point `t` reads rows `2000 t … 2000 t + 1999` of its
  row-tiled operands (and the whole weight matrix and bias row) and writes back rows `2000 t … 2000 t + 1999` of its
  result. Every entry of a written block depends only on the same row of the row-tiled operands, so the 25 blocks are the
  restrictions of ONE function of the whole operand arrays, and since they cover all 50000 rows the result array ends
  holding that function. Stated for any contents `V` of the buffers at the region's entry.
-/
import proofs.«103812_j82755429859753_2_alg».proof.Proof.Gen.KernelIdeal.Frame
import proofs.«103812_j82755429859753_2_alg».proof.Proof.KernelBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first layer's kernel -/

/-- The first layer's result as one function of its whole operands: the aggregated messages `msg`, the two columns `d`
    of per-node factors (incoming, outgoing), the weights and the bias row. -/
def G0 (msg : S50000x128.Idx → Ideal .f32) (d : S50000x2.Idx → Ideal .f32) (W : S128x128.Idx → Ideal .f32)
    (b : S1x128.Idx → Ideal .f32) : S50000x128.Idx → Ideal .bf16 :=
  fun i => max ((∑ k : Fin 128, (msg (ix2 (i 0) k) * d (ix2 (i 0) (0 : Fin 2))) * W (ix2 k (i 1))) + b (ix2 (0 : Fin 1) (i 1)))
    (Ideal.ofBits .f32 0x00000000#32) * d (ix2 (i 0) (1 : Fin 2))

/-- Where each window's block sits at point `t`: the row-tiled ones at block row `t`, the weights and the bias at the origin. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `(p, k)` of the message block at point `t` is entry `(2000 t + p, k)` of the message array. -/
theorem blk0_0 (c : Dev nD) (t : Fin cfg0.N) (p : Fin 2000) (k : Fin 128) (r : Fin 50000) (hr : r.val = t.val * 2000 + p.val) :
    iblk0 V c 0 t (ix2 p k) = V c main_v27 (ix2 r k) := by
  obtain ⟨e0, e1, -⟩ := idx_facts0 t
  show V c main_v27 (((cfg0.win 0).blk t).view.emb (ix2 p k)) = V c main_v27 (ix2 r k)
  refine congrArg (V c main_v27) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Entry `(p, j)` of the factor block at point `t` is entry `(2000 t + p, j)` of the factor array. -/
theorem blk0_1 (c : Dev nD) (t : Fin cfg0.N) (p : Fin 2000) (j : Fin 2) (r : Fin 50000) (hr : r.val = t.val * 2000 + p.val) :
    iblk0 V c 1 t (ix2 p j) = V c main_v28 (ix2 r j) := by
  obtain ⟨-, -, e0, e1, -⟩ := idx_facts0 t
  show V c main_v28 (((cfg0.win 1).blk t).view.emb (ix2 p j)) = V c main_v28 (ix2 r j)
  refine congrArg (V c main_v28) (funext fun a => Fin.ext ?_)
  match a with
  | ⟨0, _⟩ => show win0_1.index t (0 : Fin 2) * 2000 + 1 * p.val = r.val; omega
  | ⟨1, _⟩ => show win0_1.index t (1 : Fin 2) * 2 + 1 * j.val = j.val; omega

/-- The weight block is the whole weight matrix at every point. -/
theorem blk0_2 (c : Dev nD) (t : Fin cfg0.N) (k q : Fin 128) : iblk0 V c 2 t (ix2 k q) = V c main_arg3 (ix2 k q) := by
  obtain ⟨-, -, -, -, e0, e1, -⟩ := idx_facts0 t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias block is the whole bias row at every point. -/
theorem blk0_3 (c : Dev nD) (t : Fin cfg0.N) (u : Fin 1) (q : Fin 128) : iblk0 V c 3 t (ix2 u q) = V c main_v29 (ix2 u q) := by
  obtain ⟨-, -, -, -, -, -, e0, e1, -⟩ := idx_facts0 t
  show V c main_v29 (((cfg0.win 3).blk t).view.emb (ix2 u q)) = V c main_v29 (ix2 u q)
  refine congrArg (V c main_v29) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

/-- What point `t` writes back is block `t` of `G0` of the operand arrays. -/
theorem flushed0_eq (c : Dev nD) (t : Fin cfg0.N) :
    (dat0 V c).flushed 4 t = ((cfg0.win 4).blk t).view.read (Elt Ideal)
      (G0 (V c main_v27) (V c main_v28) (V c main_arg3) (V c main_v29)) := by
  have hN : cfg0.N = 25 := N_0
  obtain ⟨-, -, -, -, -, -, -, -, e0, e1⟩ := idx_facts0 t
  show (cfg0.win 4).cut (grid0.coords t) ((dat0 V c).after 4 t) = _
  rw [after0_4]
  unfold out0_4
  rw [View.canon_unit_zero hz]
  simp only [View.ld_unit_zero (S := S2000x2) hz, View.ld_unit_zero (S := S2000x128) hz,
    View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht := t.isLt
  let r : Fin 50000 := ⟨t.val * 2000 + p.val, by have := p.isLt; omega⟩
  have hemb : ((cfg0.win 4).blk t).view.emb (ix2 p q) = ix2 r q := funext fun a => Fin.ext (by
    match a with
    | ⟨0, _⟩ => show win0_4.index t (0 : Fin 2) * 2000 + 1 * p.val = t.val * 2000 + p.val; omega
    | ⟨1, _⟩ => show win0_4.index t (1 : Fin 2) * 128 + 1 * q.val = q.val; omega)
  show k0_pay1 (F := Ideal) (iblk0 V c 1 t) (iblk0 V c 0 t) (iblk0 V c 2 t) (iblk0 V c 3 t) (ix2 p q)
    = G0 (V c main_v27) (V c main_v28) (V c main_arg3) (V c main_v29) (((cfg0.win 4).blk t).view.emb (ix2 p q))
  rw [hemb]
  refine (Body.pay0_apply (iblk0 V c 1 t) (iblk0 V c 0 t) (iblk0 V c 2 t) (iblk0 V c 3 t) p q).trans ?_
  rw [blk0_1 V c t p (0 : Fin 2) r rfl, blk0_1 V c t p (1 : Fin 2) r rfl, blk0_3 V c t (0 : Fin 1) q]
  refine congrArg (fun s => max (s + V c main_v29 (ix2 (0 : Fin 1) q)) (Ideal.ofBits .f32 0x00000000#32) * V c main_v28 (ix2 r (1 : Fin 2)))
    (Finset.sum_congr rfl fun k _ => ?_)
  rw [blk0_0 V c t p k r rfl, blk0_2 V c t k q]

/-- Every row of the result lies in some point's block. -/
theorem cover0 (i : S50000x128.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 128 := (i 1).isLt
  let t : Fin cfg0.N := ⟨(i 0).val / 2000, by omega⟩
  obtain ⟨-, -, -, -, -, -, -, -, e0, e1⟩ := idx_facts0 t
  have et : t.val = (i 0).val / 2000 := rfl
  refine ⟨t, flush0_4 t, ?_⟩
  show i ∈ ((View.whole main_v30).slice (win0_4.rect t)).set
  rw [View.set_slice_whole, Rect.mem_set_unit]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- The first layer's result array after the region: `G0` of the operand arrays as the region found them. -/
theorem final0 (c : Dev nD) :
    (dat0 V c).arrAt 4 cfg0.N = G0 (V c main_v27) (V c main_v28) (V c main_arg3) (V c main_v29) :=
  (dat0 V c).arrAt_eq_of_cover 4 _ (fun t _ => flushed0_eq V c t) cover0

/-! ## The second layer's kernel -/

/-- The second layer's result as one function of its whole operands: the aggregated messages `msg`, the column `d` of
    incoming per-node factors, the weights and the bias row. -/
def G1 (msg : S50000x128.Idx → Ideal .f32) (d : S50000x1.Idx → Ideal .f32) (W : S128x128.Idx → Ideal .f32)
    (b : S1x128.Idx → Ideal .f32) : S50000x128.Idx → Ideal .f32 :=
  fun i => (∑ k : Fin 128, (msg (ix2 (i 0) k) * d (ix2 (i 0) (0 : Fin 1))) * W (ix2 k (i 1))) + b (ix2 (0 : Fin 1) (i 1))

/-- Where each window's block sits at point `t`: the row-tiled ones at block row `t`, the weights and the bias at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the message block at point `t` is entry `(2000 t + p, k)` of the message array. -/
theorem blk1_0 (c : Dev nD) (t : Fin cfg1.N) (p : Fin 2000) (k : Fin 128) (r : Fin 50000) (hr : r.val = t.val * 2000 + p.val) :
    iblk1 V c 0 t (ix2 p k) = V c main_v41 (ix2 r k) := by
  obtain ⟨e0, e1, -⟩ := idx_facts1 t
  show V c main_v41 (((cfg1.win 0).blk t).view.emb (ix2 p k)) = V c main_v41 (ix2 r k)
  refine congrArg (V c main_v41) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Entry `(p, 0)` of the factor block at point `t` is entry `(2000 t + p, 0)` of the factor column. -/
theorem blk1_1 (c : Dev nD) (t : Fin cfg1.N) (p : Fin 2000) (j : Fin 1) (r : Fin 50000) (hr : r.val = t.val * 2000 + p.val) :
    iblk1 V c 1 t (ix2 p j) = V c main_v13 (ix2 r j) := by
  obtain ⟨-, -, e0, e1, -⟩ := idx_facts1 t
  show V c main_v13 (((cfg1.win 1).blk t).view.emb (ix2 p j)) = V c main_v13 (ix2 r j)
  refine congrArg (V c main_v13) (funext fun a => Fin.ext ?_)
  match a with
  | ⟨0, _⟩ => show win1_1.index t (0 : Fin 2) * 2000 + 1 * p.val = r.val; omega
  | ⟨1, _⟩ => show win1_1.index t (1 : Fin 2) * 1 + 1 * j.val = j.val; omega

/-- The weight block is the whole weight matrix at every point. -/
theorem blk1_2 (c : Dev nD) (t : Fin cfg1.N) (k q : Fin 128) : iblk1 V c 2 t (ix2 k q) = V c main_arg5 (ix2 k q) := by
  obtain ⟨-, -, -, -, e0, e1, -⟩ := idx_facts1 t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias block is the whole bias row at every point. -/
theorem blk1_3 (c : Dev nD) (t : Fin cfg1.N) (u : Fin 1) (q : Fin 128) : iblk1 V c 3 t (ix2 u q) = V c main_v42 (ix2 u q) := by
  obtain ⟨-, -, -, -, -, -, e0, e1, -⟩ := idx_facts1 t
  show V c main_v42 (((cfg1.win 3).blk t).view.emb (ix2 u q)) = V c main_v42 (ix2 u q)
  refine congrArg (V c main_v42) (funext fun a => Fin.ext ?_)
  match a with
  | ⟨0, _⟩ => show win1_3.index t (0 : Fin 2) * 1 + 1 * u.val = u.val; omega
  | ⟨1, _⟩ => show win1_3.index t (1 : Fin 2) * 128 + 1 * q.val = q.val; omega

/-- What point `t` writes back is block `t` of `G1` of the operand arrays. -/
theorem flushed1_eq (c : Dev nD) (t : Fin cfg1.N) :
    (dat1 V c).flushed 4 t = ((cfg1.win 4).blk t).view.read (Elt Ideal)
      (G1 (V c main_v41) (V c main_v13) (V c main_arg5) (V c main_v42)) := by
  have hN : cfg1.N = 25 := N_1
  obtain ⟨-, -, -, -, -, -, -, -, e0, e1⟩ := idx_facts1 t
  show (cfg1.win 4).cut (grid1.coords t) ((dat1 V c).after 4 t) = _
  rw [after1_4]
  unfold out1_4
  rw [View.canon_unit_zero hz]
  simp only [View.ld_unit_zero (S := S2000x1) hz, View.ld_unit_zero (S := S2000x128) hz,
    View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht := t.isLt
  let r : Fin 50000 := ⟨t.val * 2000 + p.val, by have := p.isLt; omega⟩
  have hemb : ((cfg1.win 4).blk t).view.emb (ix2 p q) = ix2 r q := funext fun a => Fin.ext (by
    match a with
    | ⟨0, _⟩ => show win1_4.index t (0 : Fin 2) * 2000 + 1 * p.val = t.val * 2000 + p.val; omega
    | ⟨1, _⟩ => show win1_4.index t (1 : Fin 2) * 128 + 1 * q.val = q.val; omega)
  show k1_pay1 (F := Ideal) (iblk1 V c 1 t) (iblk1 V c 0 t) (iblk1 V c 2 t) (iblk1 V c 3 t) (ix2 p q)
    = G1 (V c main_v41) (V c main_v13) (V c main_arg5) (V c main_v42) (((cfg1.win 4).blk t).view.emb (ix2 p q))
  rw [hemb]
  refine (Body.pay1_apply (iblk1 V c 1 t) (iblk1 V c 0 t) (iblk1 V c 2 t) (iblk1 V c 3 t) p q).trans ?_
  rw [blk1_1 V c t p (0 : Fin 1) r rfl, blk1_3 V c t (0 : Fin 1) q]
  refine congrArg (fun s => s + V c main_v42 (ix2 (0 : Fin 1) q)) (Finset.sum_congr rfl fun k _ => ?_)
  rw [blk1_0 V c t p k r rfl, blk1_2 V c t k q]

/-- Every row of the result lies in some point's block. -/
theorem cover1 (i : S50000x128.Idx) : ∃ t : Fin cfg1.N, (cfg1.win 4).flush t = true ∧ i ∈ ((cfg1.win 4).blk t).view.set := by
  have hN : cfg1.N = 25 := N_1
  have hi0 : (i 0).val < 50000 := (i 0).isLt
  have hi1 : (i 1).val < 128 := (i 1).isLt
  let t : Fin cfg1.N := ⟨(i 0).val / 2000, by omega⟩
  obtain ⟨-, -, -, -, -, -, -, -, e0, e1⟩ := idx_facts1 t
  have et : t.val = (i 0).val / 2000 := rfl
  refine ⟨t, flush1_4 t, ?_⟩
  show i ∈ ((View.whole main_v43).slice (win1_4.rect t)).set
  rw [View.set_slice_whole, Rect.mem_set_unit]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The second layer's result array after the region: `G1` of the operand arrays as the region found them. -/
theorem final1 (c : Dev nD) :
    (dat1 V c).arrAt 4 cfg1.N = G1 (V c main_v41) (V c main_v13) (V c main_arg5) (V c main_v42) :=
  (dat1 V c).arrAt_eq_of_cover 4 _ (fun t _ => flushed1_eq V c t) cover1

end Cert.KernelIdeal.Blocks

end
-- ==== Proof.KernelHost.lean ====
/-
  What the kernel's program holds in the buffers its two regions read, and hence what its result array ends holding,
  as terms of the argument arrays: the stretches of host operations composed from the launch memory, each region's
  result array taken from the blocks-to-array step at the contents the region is entered with.
-/
import proofs.«103812_j82755429859753_2_alg».proof.Proof.Gen.KernelIdeal.Frame
import proofs.«103812_j82755429859753_2_alg».proof.Proof.KernelHostOps
import proofs.«103812_j82755429859753_2_alg».proof.Proof.KernelBlocks

set_option maxRecDepth 16384

noncomputable section

namespace Cert.KernelIdeal.HostRead

open Cert.KernelIdeal Cert.KernelIdeal.Gen Cert.KernelIdeal.HostPieces Cert.KernelIdeal.HostOps Cert.KernelIdeal.Blocks
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region -/

/-- The arguments are as launched before the last stretch … -/
theorem args4 (c : Dev nD) : SameArgs (W0 m ρ c) (W4 m ρ c) :=
  ((same_hostOps0 (W0 m ρ c)).trans (same_hostOps0_1 (W1 m ρ c))).trans
    ((same_hostOps0_2 (W2 m ρ c)).trans (same_hostOps0_3 (W3 m ρ c)))

/-- … and when the first region is entered. -/
theorem args5 (c : Dev nD) : SameArgs (W0 m ρ c) (W5 m ρ c) := (args4 m ρ c).trans (same_hostOps0_4 (W4 m ρ c))

/-- The outgoing factor column before the last stretch. -/
theorem w4_v6 (c : Dev nD) : W4 m ρ c (Proc.devRef .tc main_v6) = colK (invK (m ((c : Thread nD τ).loc main_arg1))) :=
  (((s3 (W3 m ρ c)).2.trans (s2 (W2 m ρ c)).1).trans
    (congrArg (fun z => colK (Host.rsqrt z)) ((s1 (W1 m ρ c)).trans (congrArg₂ clipK (s0 (W0 m ρ c)).2 (s0 (W0 m ρ c)).1)))).trans rfl

/-- The incoming factor before the last stretch. -/
theorem w4_v11 (c : Dev nD) : Host.rsqrt (W4 m ρ c (Proc.devRef .tc main_v11)) = invK (m ((c : Thread nD τ).loc main_arg2)) :=
  (congrArg Host.rsqrt ((s3 (W3 m ρ c)).1.trans (congrArg₂ clipK (s2 (W2 m ρ c)).2.2
    ((s2 (W2 m ρ c)).2.1.trans (congrArg cntK ((same_hostOps0 (W0 m ρ c)).trans (same_hostOps0_1 (W1 m ρ c))).2.2.1))))).trans rfl

/-- The incoming factor column when the first region is entered. -/
theorem w5_v13 (c : Dev nD) : W5 m ρ c (Proc.devRef .tc main_v13) = colK (invK (m ((c : Thread nD τ).loc main_arg2))) :=
  (s4_v13 (W4 m ρ c)).trans (congrArg colK (w4_v11 m ρ c))

/-- The aggregated out-scaled features when the first region is entered. -/
theorem w5_v27 (c : Dev nD) :
    W5 m ρ c (Proc.devRef .tc main_v27) = aggK (m ((c : Thread nD τ).loc main_arg1)) (m ((c : Thread nD τ).loc main_arg2)) (scaledK (m ((c : Thread nD τ).loc main_arg0)) (invK (m ((c : Thread nD τ).loc main_arg1)))) := by
  obtain ⟨a0, a1, a2, -⟩ := args4 m ρ c
  refine (s4_v27 (W4 m ρ c)).trans ?_
  rw [a0, a1, a2, w4_v6 m ρ c]
  rfl

/-- The two factor columns side by side when the first region is entered. -/
theorem w5_v28 (c : Dev nD) : W5 m ρ c (Proc.devRef .tc main_v28) = pairK (invK (m ((c : Thread nD τ).loc main_arg2))) (invK (m ((c : Thread nD τ).loc main_arg1))) := by
  refine (s4_v28 (W4 m ρ c)).trans ?_
  rw [w4_v11 m ρ c, w4_v6 m ρ c]
  rfl

/-- The first bias row when the first region is entered. -/
theorem w5_v29 (c : Dev nD) : W5 m ρ c (Proc.devRef .tc main_v29) = rowK (m ((c : Thread nD τ).loc main_arg4)) :=
  (s4_v29 (W4 m ρ c)).trans (congrArg rowK (args4 m ρ c).2.2.2.2.1)

/-! ## The first region and the stretch after it -/

/-- The first region's result array: the first layer's function of the aggregated out-scaled features, the two factor
    columns, the first weights and the first bias row. -/
theorem w6_v30 (c : Dev nD) :
    W6 m ρ c (Proc.devRef .tc main_v30)
      = G0 (aggK (m ((c : Thread nD τ).loc main_arg1)) (m ((c : Thread nD τ).loc main_arg2)) (scaledK (m ((c : Thread nD τ).loc main_arg0)) (invK (m ((c : Thread nD τ).loc main_arg1))))) (pairK (invK (m ((c : Thread nD τ).loc main_arg2))) (invK (m ((c : Thread nD τ).loc main_arg1))))
          (m ((c : Thread nD τ).loc main_arg3)) (rowK (m ((c : Thread nD τ).loc main_arg4))) := by
  refine (W6_arr m ρ c 4).trans ?_
  refine (final0 (V5 m ρ) c).trans ?_
  show G0 (W5 m ρ c (Proc.devRef .tc main_v27)) (W5 m ρ c (Proc.devRef .tc main_v28))
      (W5 m ρ c (Proc.devRef .tc main_arg3)) (W5 m ρ c (Proc.devRef .tc main_v29)) = _
  rw [w5_v27 m ρ c, w5_v28 m ρ c, w5_v29 m ρ c, (args5 m ρ c).2.2.2.1]

/-- What the first region does not write keeps its entry contents. -/
theorem w6_keep (c : Dev nD) :
    W6 m ρ c (Proc.devRef .tc main_arg1) = (m ((c : Thread nD τ).loc main_arg1))
    ∧ W6 m ρ c (Proc.devRef .tc main_arg2) = (m ((c : Thread nD τ).loc main_arg2))
    ∧ W6 m ρ c (Proc.devRef .tc main_arg5) = (m ((c : Thread nD τ).loc main_arg5))
    ∧ W6 m ρ c (Proc.devRef .tc main_arg6) = (m ((c : Thread nD τ).loc main_arg6))
    ∧ W6 m ρ c (Proc.devRef .tc main_v13) = colK (invK (m ((c : Thread nD τ).loc main_arg2))) :=
  ⟨(W6_of_ne m ρ c main_arg1 (by decide)).trans (args5 m ρ c).2.1,
   (W6_of_ne m ρ c main_arg2 (by decide)).trans (args5 m ρ c).2.2.1,
   (W6_of_ne m ρ c main_arg5 (by decide)).trans (args5 m ρ c).2.2.2.2.2.1,
   (W6_of_ne m ρ c main_arg6 (by decide)).trans (args5 m ρ c).2.2.2.2.2.2,
   (W6_of_ne m ρ c main_v13 (by decide)).trans (w5_v13 m ρ c)⟩

/-! ## The second region -/

/-- THE RESULT ARRAY after the run: the second layer's function of the aggregated first-layer result. -/
theorem result_eq (c : Dev nD) :
    W8 m ρ c (Proc.devRef .tc main_v43)
      = G1 (aggK (m ((c : Thread nD τ).loc main_arg1)) (m ((c : Thread nD τ).loc main_arg2))
              (G0 (aggK (m ((c : Thread nD τ).loc main_arg1)) (m ((c : Thread nD τ).loc main_arg2)) (scaledK (m ((c : Thread nD τ).loc main_arg0)) (invK (m ((c : Thread nD τ).loc main_arg1))))) (pairK (invK (m ((c : Thread nD τ).loc main_arg2))) (invK (m ((c : Thread nD τ).loc main_arg1))))
                  (m ((c : Thread nD τ).loc main_arg3)) (rowK (m ((c : Thread nD τ).loc main_arg4)))))
          (colK (invK (m ((c : Thread nD τ).loc main_arg2)))) (m ((c : Thread nD τ).loc main_arg5)) (rowK (m ((c : Thread nD τ).loc main_arg6))) := by
  obtain ⟨k1, k2, k5, k6, k13⟩ := w6_keep m ρ c
  obtain ⟨t41, t42, t13⟩ := s5 (W6 m ρ c)
  have t5 := (same_hostOps1 (W6 m ρ c)).2.2.2.2.2.1
  refine (W8_arr m ρ c 4).trans ?_
  refine (final1 (V7 m ρ) c).trans ?_
  show G1 (after hostOps1 (W6 m ρ c) (Proc.devRef .tc main_v41)) (after hostOps1 (W6 m ρ c) (Proc.devRef .tc main_v13))
      (after hostOps1 (W6 m ρ c) (Proc.devRef .tc main_arg5)) (after hostOps1 (W6 m ρ c) (Proc.devRef .tc main_v42)) = _
  rw [t41, t42, t13, t5, w6_v30 m ρ c, k1, k2, k5, k6, k13]

end Cert.KernelIdeal.HostRead

end
-- ==== Proof.Spec.lean ====
/-
  The function both programs compute, index by index, on extended reals: a two-layer graph convolution with symmetric
  degree normalisation. Every row r of a feature matrix is scaled by a per-node factor, the rows are aggregated along the
  edges (an operator `agg` on matrices, kept abstract here), scaled again, multiplied by a 128 × 128 weight matrix and
  shifted by a bias row; between the two layers the result is clamped below at zero.
-/
import Idealize.ShloMosaic.Lib.ValueIdx
import Idealize.ShloMosaic.PureOps.Ideal

noncomputable section

open scoped BigOperators

namespace Cert.GcnSpec

open Idealize.ShloMosaic Idealize.ShloMosaic.ValueIdx

/-- A node-feature matrix, 50000 nodes by 128 features. -/
abbrev Mat : Type := FVec Ideal ⟨2, ![50000, 128]⟩ .f32
/-- One factor per node. -/
abbrev Col : Type := FVec Ideal ⟨1, ![50000]⟩ .f32
/-- A weight matrix. -/
abbrev Wt : Type := FVec Ideal ⟨2, ![128, 128]⟩ .f32
/-- A bias row. -/
abbrev Bias : Type := FVec Ideal ⟨1, ![128]⟩ .f32

/-- Row `r` of `M` multiplied by the factor `s r`. -/
def scaleRows (M : Mat) (s : Col) : Mat := fun i => M i * s (ix1 (i 0))

/-- The dense half of a layer: entry `(r, f)` is `∑ k, (M (r, k) · s r) · W (k, f) + b f`. -/
def lin (M : Mat) (s : Col) (W : Wt) (b : Bias) : Mat :=
  fun i => (∑ k : Fin 128, (M (ix2 (i 0) k) * s (ix1 (i 0))) * W (ix2 k (i 1))) + b (ix1 (i 1))

/-- The first layer's output as the second layer gathers it: the dense half clamped below at zero, then row `r`
    multiplied by the outgoing factor `sOut r`. -/
def hidden (M : Mat) (sIn sOut : Col) (W : Wt) (b : Bias) : Mat :=
  fun i => max (lin M sIn W b i) (Ideal.ofBits .f32 0x00000000#32) * sOut (ix1 (i 0))

/-- The whole network: aggregate the out-scaled features, first layer, aggregate again, second layer. -/
def out (agg : Mat → Mat) (sOut sIn : Col) (x : Mat) (W1 : Wt) (b1 : Bias) (W2 : Wt) (b2 : Bias) : Mat :=
  lin (agg (hidden (agg (scaleRows x sOut)) sIn sOut W1 b1)) sIn W2 b2

end Cert.GcnSpec

end
-- ==== Proof.Shared.lean ====
/-
  The two host pieces that both programs spell with the same operations, named once so that neither is ever opened:
  the per-node factor `1 / sqrt (max 1 (number of edges ending at the node))` and the aggregation along the edges (row
  `src e` of a matrix, with a negative index counted from the end, added into row `dst e`, over all edges `e`).
-/
import proofs.«103812_j82755429859753_2_alg».proof.Proof.Gen.ReferenceIdeal
import proofs.«103812_j82755429859753_2_alg».proof.Proof.Spec

noncomputable section

namespace Cert.GcnShared

open Idealize.ShloMosaic Cert.ReferenceIdeal Cert.ReferenceIdeal.Gen

/-- One over the square root of each node's edge count (counted along `idx`), the count clamped below at one. -/
def inv (idx : IVec S800000 32) : FVec Ideal S50000 .f32 :=
  Host.rsqrt (maximumf (broadcastInDim S50000 ![] bcast_S_S50000 (id (constant (F := Ideal) S_ .f32 0x3F800000#32)))
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32))))

/-- Sum, into row `dst e`, of row `src e` of `xs` over all edges `e`. -/
def agg (src dst : IVec S800000 32) (xs : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 xs
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end Cert.GcnShared

end
-- ==== Proof.KernelAlgebra.lean ====
/-
  The kernel program's host pieces and the two kernels' result functions, read as the specification: the factor and the
  aggregation are the shared ones (the change of float format around the gather is the identity on extended reals), a
  factor vector viewed as a column reads the factor of the row, a bias vector viewed as a row reads the bias of the
  column, and the two kernels' result functions are the specification's clamped first layer and its dense half.
-/
import proofs.«103812_j82755429859753_2_alg».proof.Proof.KernelShared
import proofs.«103812_j82755429859753_2_alg».proof.Proof.KernelBlocks
import proofs.«103812_j82755429859753_2_alg».proof.Proof.Spec
import proofs.«103812_j82755429859753_2_alg».proof.Proof.Shared
import proofs.«103812_j82755429859753_2_alg».proof.Proof.LibHostForms
import Idealize.ShloMosaic.Lib.Pipeline.Value
import Idealize.ShloMosaic.Lib.ValueLayout
import Idealize.ShloMosaic.Lib.ValueIdx

noncomputable section

open scoped BigOperators

namespace Cert.KernelIdeal.Algebra

open Cert.KernelIdeal Cert.KernelIdeal.Gen Cert.KernelIdeal.HostPieces Cert.KernelIdeal.Blocks Idealize.ShloMosaic
  Idealize.ShloMosaic.ValueIdx

/-! ## The shared pieces -/

/-- The aggregation of a narrowed matrix is the shared aggregation of the matrix: narrowing and widening are the
    identity on extended reals, and the gather and the scatter-add are the same operations. -/
theorem aggK_eq (src dst : IVec S800000 32) (xs : FVec Ideal S50000x128 .f32) :
    aggK src dst (truncf .bf16 xs bitsLt_bf16_f32) = Cert.GcnShared.agg src dst xs := rfl

/-- The per-node factor is the shared one. -/
theorem invK_eq (idx : IVec S800000 32) : invK idx = Cert.GcnShared.inv idx := rfl

/-! ## Columns, rows and the pair of columns at an index -/

/-- A factor vector viewed as a column reads, at `(r, 0)`, the factor of node `r`. -/
theorem colK_apply (s : FVec Ideal S50000 .f32) (r : Fin 50000) : colK s (ix2 r (0 : Fin 1)) = s (ix1 r) := by
  unfold colK
  refine shapeCast_apply s _ _ (ix1 r) ?_
  rw [Shape.rowMajor_val_two, Shape.rowMajor_val_one]
  show r.val = r.val * 1 + 0
  omega

/-- A bias vector viewed as a row reads, at `(0, f)`, the bias of feature `f`. -/
theorem rowK_apply (b : FVec Ideal S128 .f32) (f : Fin 128) : rowK b (ix2 (0 : Fin 1) f) = b (ix1 f) :=
  shapeCast_a_1a_apply b _ 0 f

/-- Column 0 of the pair is the incoming factor. -/
theorem pairK_apply0 (sIn sOut : FVec Ideal S50000 .f32) (r : Fin 50000) :
    pairK sIn sOut (ix2 r (0 : Fin 2)) = sIn (ix1 r) := by
  unfold pairK
  rw [concatenate_pair_apply_left (1 : Fin 2) (colK sIn) (colK sOut) _ (ix2 r (0 : Fin 2)) rfl (ix2 r (0 : Fin 1))
    (fun b => by match b with | ⟨0, _⟩ => rfl | ⟨1, _⟩ => rfl)]
  exact colK_apply sIn r

/-- Column 1 of the pair is the outgoing factor. -/
theorem pairK_apply1 (sIn sOut : FVec Ideal S50000 .f32) (r : Fin 50000) :
    pairK sIn sOut (ix2 r (1 : Fin 2)) = sOut (ix1 r) := by
  unfold pairK
  rw [concatenate_pair_apply_right (1 : Fin 2) (colK sIn) (colK sOut) _ (ix2 r (1 : Fin 2)) rfl rfl (ix2 r (0 : Fin 1))
    (fun b hb => by match b with | ⟨0, _⟩ => rfl | ⟨1, _⟩ => exact absurd rfl hb) rfl]
  exact colK_apply sOut r

/-! ## The out-scaled features -/

/-- A column repeated along the features reads, at `(r, f)`, the column at `(r, 0)`. -/
theorem bcast_col_apply (c : FVec Ideal S50000x1 .f32) (r : Fin 50000) (f : Fin 128) :
    broadcastInDim S50000x128 ![0, 1] bcast_S50000x1_S50000x128_0_1 c (ix2 r f) = c (ix2 r (0 : Fin 1)) :=
  broadcastInDim_apply _ bcast_S50000x1_S50000x128_0_1 c (ix2 r f) (ix2 r (0 : Fin 1)) (fun a => by
    match a with
    | ⟨0, _⟩ => show r.val = if (50000 : ℕ) = 1 then 0 else r.val; rw [if_neg (by decide)]
    | ⟨1, _⟩ => show 0 = if (1 : ℕ) = 1 then 0 else f.val; rw [if_pos rfl])

/-- The features with row `r` multiplied by the factor `s r` (the narrowing is the identity on extended reals). -/
theorem scaledK_eq (x : FVec Ideal S50000x128 .f32) (s : FVec Ideal S50000 .f32) :
    scaledK x s = Cert.GcnSpec.scaleRows x s := by
  funext i
  obtain ⟨r, f, rfl⟩ : ∃ (r : Fin 50000) (f : Fin 128), i = ix2 r f := ⟨i 0, i 1, eq_ix2 i⟩
  show x (ix2 r f) * broadcastInDim S50000x128 ![0, 1] bcast_S50000x1_S50000x128_0_1 (colK s) (ix2 r f)
    = x (ix2 r f) * s (ix1 r)
  rw [bcast_col_apply, colK_apply]

/-! ## The two kernels' result functions -/

/-- The first kernel's result function at entry `(r, f)`, with the coordinates named. -/
theorem G0_apply (msg : S50000x128.Idx → Ideal .f32) (d : S50000x2.Idx → Ideal .f32) (W : S128x128.Idx → Ideal .f32)
    (b : S1x128.Idx → Ideal .f32) (r : Fin 50000) (f : Fin 128) :
    G0 msg d W b (ix2 r f)
      = max ((∑ k : Fin 128, (msg (ix2 r k) * d (ix2 r (0 : Fin 2))) * W (ix2 k f)) + b (ix2 (0 : Fin 1) f))
          (Ideal.ofBits .f32 0x00000000#32) * d (ix2 r (1 : Fin 2)) := rfl

/-- The second kernel's result function at entry `(r, f)`, with the coordinates named. -/
theorem G1_apply (msg : S50000x128.Idx → Ideal .f32) (d : S50000x1.Idx → Ideal .f32) (W : S128x128.Idx → Ideal .f32)
    (b : S1x128.Idx → Ideal .f32) (r : Fin 50000) (f : Fin 128) :
    G1 msg d W b (ix2 r f)
      = (∑ k : Fin 128, (msg (ix2 r k) * d (ix2 r (0 : Fin 1))) * W (ix2 k f)) + b (ix2 (0 : Fin 1) f) := rfl

/-- The specification's dense half at entry `(r, f)`, with the coordinates named. -/
theorem lin_apply (M : Cert.GcnSpec.Mat) (s : Cert.GcnSpec.Col) (W : Cert.GcnSpec.Wt) (b : Cert.GcnSpec.Bias)
    (r : Fin 50000) (f : Fin 128) :
    Cert.GcnSpec.lin M s W b (ix2 r f)
      = (∑ k : Fin 128, (M (ix2 r k) * s (ix1 r)) * W (ix2 k f)) + b (ix1 f) := rfl

/-- The specification's clamped and out-scaled first layer at entry `(r, f)`, with the coordinates named. -/
theorem hidden_apply (M : Cert.GcnSpec.Mat) (sIn sOut : Cert.GcnSpec.Col) (W : Cert.GcnSpec.Wt) (b : Cert.GcnSpec.Bias)
    (r : Fin 50000) (f : Fin 128) :
    Cert.GcnSpec.hidden M sIn sOut W b (ix2 r f)
      = max ((∑ k : Fin 128, (M (ix2 r k) * sIn (ix1 r)) * W (ix2 k f)) + b (ix1 f))
          (Ideal.ofBits .f32 0x00000000#32) * sOut (ix1 r) := rfl

/-- The first kernel's result function, fed the pair of factor columns and the bias row, is the specification's clamped
    and out-scaled first layer. -/
theorem G0_eq (M : FVec Ideal S50000x128 .f32) (sIn sOut : FVec Ideal S50000 .f32) (W : FVec Ideal S128x128 .f32)
    (b : FVec Ideal S128 .f32) :
    G0 M (pairK sIn sOut) W (rowK b) = Cert.GcnSpec.hidden M sIn sOut W b := by
  funext i
  obtain ⟨r, f, rfl⟩ : ∃ (r : Fin 50000) (f : Fin 128), i = ix2 r f := ⟨i 0, i 1, eq_ix2 i⟩
  rw [G0_apply, hidden_apply, pairK_apply0, pairK_apply1, rowK_apply]

/-- The second kernel's result function, fed the incoming factor column and the bias row, is the specification's dense
    half. -/
theorem G1_eq (M : FVec Ideal S50000x128 .f32) (sIn : FVec Ideal S50000 .f32) (W : FVec Ideal S128x128 .f32)
    (b : FVec Ideal S128 .f32) :
    G1 M (colK sIn) W (rowK b) = Cert.GcnSpec.lin M sIn W b := by
  funext i
  obtain ⟨r, f, rfl⟩ : ∃ (r : Fin 50000) (f : Fin 128), i = ix2 r f := ⟨i 0, i 1, eq_ix2 i⟩
  rw [G1_apply, lin_apply, colK_apply, rowK_apply]

/-! ## The whole network -/

/-- The aggregation of any matrix stored in the narrow format is the shared aggregation of the same extended reals. -/
theorem aggK_eq' (src dst : IVec S800000 32) (y : FVec Ideal S50000x128 .bf16) :
    aggK src dst y = Cert.GcnShared.agg src dst y := rfl

/-- The kernel program's pieces composed in its order are the specification's two-layer network. -/
theorem network_eq (x : FVec Ideal S50000x128 .f32) (src dst : IVec S800000 32) (W1 : FVec Ideal S128x128 .f32)
    (b1 : FVec Ideal S128 .f32) (W2 : FVec Ideal S128x128 .f32) (b2 : FVec Ideal S128 .f32) :
    G1 (aggK src dst (G0 (aggK src dst (scaledK x (invK src))) (pairK (invK dst) (invK src)) W1 (rowK b1)))
        (colK (invK dst)) W2 (rowK b2)
      = Cert.GcnSpec.out (Cert.GcnShared.agg src dst) (Cert.GcnShared.inv src) (Cert.GcnShared.inv dst) x W1 b1 W2 b2 := by
  rw [G1_eq, aggK_eq', G0_eq, aggK_eq', scaledK_eq, invK_eq, invK_eq]
  rfl

end Cert.KernelIdeal.Algebra

end
-- ==== Proof.RefValue.lean ====
/-
  The reference program's result, read as the specification function: each of its two layers scales the rows of its
  input by the outgoing factor, aggregates along the edges, scales by the incoming factor, multiplies by the weight
  matrix and adds the bias row; the first layer's result is clamped below at zero in between.
-/
import proofs.«103812_j82755429859753_2_alg».proof.Proof.Gen.ReferenceIdeal.Read
import proofs.«103812_j82755429859753_2_alg».proof.Proof.Shared
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem

/-! ## The per-node factors

Both layers compute `1 / sqrt (max 1 (edge count))` along the source and along the destination indices with the same
operations; each of the four occurrences is the shared factor as a whole term. -/

/-- The outgoing factor, as the first layer computes it. -/
theorem v10_eq (x1 : IVec S800000 32) : val_main_v10 (F := Ideal) x1 = Cert.GcnShared.inv x1 := rfl

/-- The incoming factor, as the first layer computes it. -/
theorem v24_eq (x2 : IVec S800000 32) : val_main_v24 (F := Ideal) x2 = Cert.GcnShared.inv x2 := rfl

/-- The outgoing factor, as the second layer computes it again. -/
theorem v43_eq (x1 : IVec S800000 32) : val_main_v43 (F := Ideal) x1 = Cert.GcnShared.inv x1 := rfl

/-- The incoming factor, as the second layer computes it again. -/
theorem v57_eq (x2 : IVec S800000 32) : val_main_v57 (F := Ideal) x2 = Cert.GcnShared.inv x2 := rfl

/-! ## Where the layout operations read

A per-node factor is broadcast to a column and then along the features, so entry `(r, f)` reads node `r`; a bias row is
broadcast to a one-row matrix and then along the nodes, so entry `(r, f)` reads feature `f`; term `k` of the
contraction at `(r, f)` reads the left matrix at `(r, k)` and the weights at `(k, f)`. -/

theorem row_v12 (r : Fin 50000) (f : Fin 128) : idx_main_v11 (idx_main_v12 (ix2 r f)) = ix1 r :=
  funext fun a => Fin.ext (by match a with | ⟨0, _⟩ => rfl)
theorem row_v26 (r : Fin 50000) (f : Fin 128) : idx_main_v25 (idx_main_v26 (ix2 r f)) = ix1 r :=
  funext fun a => Fin.ext (by match a with | ⟨0, _⟩ => rfl)
theorem row_v45 (r : Fin 50000) (f : Fin 128) : idx_main_v44 (idx_main_v45 (ix2 r f)) = ix1 r :=
  funext fun a => Fin.ext (by match a with | ⟨0, _⟩ => rfl)
theorem row_v59 (r : Fin 50000) (f : Fin 128) : idx_main_v58 (idx_main_v59 (ix2 r f)) = ix1 r :=
  funext fun a => Fin.ext (by match a with | ⟨0, _⟩ => rfl)
theorem col_v30 (r : Fin 50000) (f : Fin 128) : idx_main_v29 (idx_main_v30 (ix2 r f)) = ix1 f :=
  funext fun a => Fin.ext (by match a with | ⟨0, _⟩ => rfl)
theorem col_v63 (r : Fin 50000) (f : Fin 128) : idx_main_v62 (idx_main_v63 (ix2 r f)) = ix1 f :=
  funext fun a => Fin.ext (by match a with | ⟨0, _⟩ => rfl)
theorem lidx_v28 (r : Fin 50000) (f k : Fin 128) : lidx_main_v28 (ix2 r f) k = ix2 r k :=
  funext fun a => Fin.ext (by match a with | ⟨0, _⟩ => rfl | ⟨1, _⟩ => rfl)
theorem ridx_v28 (r : Fin 50000) (f k : Fin 128) : ridx_main_v28 (ix2 r f) k = ix2 k f :=
  funext fun a => Fin.ext (by match a with | ⟨0, _⟩ => rfl | ⟨1, _⟩ => rfl)
theorem lidx_v61 (r : Fin 50000) (f k : Fin 128) : lidx_main_v61 (ix2 r f) k = ix2 r k :=
  funext fun a => Fin.ext (by match a with | ⟨0, _⟩ => rfl | ⟨1, _⟩ => rfl)
theorem ridx_v61 (r : Fin 50000) (f k : Fin 128) : ridx_main_v61 (ix2 r f) k = ix2 k f :=
  funext fun a => Fin.ext (by match a with | ⟨0, _⟩ => rfl | ⟨1, _⟩ => rfl)

/-- The dense half of a layer at entry `(r, f)`, with the coordinates named. -/
theorem lin_apply (M : Cert.GcnSpec.Mat) (s : Cert.GcnSpec.Col) (W : Cert.GcnSpec.Wt) (b : Cert.GcnSpec.Bias)
    (r : Fin 50000) (f : Fin 128) :
    Cert.GcnSpec.lin M s W b (ix2 r f)
      = (∑ k : Fin 128, (M (ix2 r k) * s (ix1 r)) * W (ix2 k f)) + b (ix1 f) := rfl

/-! ## The first layer -/

/-- The input features with row `r` multiplied by the outgoing factor of node `r`. -/
theorem v13_eq (x0 : FVec Ideal S50000x128 .f32) (x1 : IVec S800000 32) :
    val_main_v13 (F := Ideal) x0 x1 = Cert.GcnSpec.scaleRows x0 (Cert.GcnShared.inv x1) := by
  funext i
  obtain ⟨r, f, rfl⟩ : ∃ (r : Fin 50000) (f : Fin 128), i = ix2 r f := ⟨i 0, i 1, eq_ix2 i⟩
  rw [val_main_v13_apply, val_main_v12_apply, val_main_v11_apply, row_v12, v10_eq]
  rfl

/-- The first aggregation: the reference gathers the scaled rows at the source indices (a negative index counted from
    the end) and adds them into the rows at the destination indices. -/
theorem v23_eq (x0 : FVec Ideal S50000x128 .f32) (x1 x2 : IVec S800000 32) :
    val_main_v23 (F := Ideal) x0 x1 x2 = Cert.GcnShared.agg x1 x2 (val_main_v13 (F := Ideal) x0 x1) := rfl

/-- The first layer before the clamp: the dense half applied to the aggregated rows. -/
theorem v31_eq (x0 : FVec Ideal S50000x128 .f32) (x1 x2 : IVec S800000 32) (x3 : FVec Ideal S128x128 .f32)
    (x4 : FVec Ideal S128 .f32) :
    val_main_v31 (F := Ideal) x0 x1 x2 x3 x4
      = Cert.GcnSpec.lin (val_main_v23 (F := Ideal) x0 x1 x2) (Cert.GcnShared.inv x2) x3 x4 := by
  funext i
  obtain ⟨r, f, rfl⟩ : ∃ (r : Fin 50000) (f : Fin 128), i = ix2 r f := ⟨i 0, i 1, eq_ix2 i⟩
  rw [lin_apply, val_main_v31_apply, val_main_v28_apply, val_main_v30_apply, val_main_v29_apply, col_v30]
  refine congrArg₂ (· + ·) (Finset.sum_congr rfl fun k _ => ?_) rfl
  rw [lidx_v28, ridx_v28, val_main_v27_apply, val_main_v26_apply, val_main_v25_apply, row_v26, v24_eq]
  rfl

/-- The first layer's result as the second layer gathers it: clamped below at zero, then row `r` multiplied by the
    outgoing factor of node `r`. -/
theorem v46_eq (x0 : FVec Ideal S50000x128 .f32) (x1 x2 : IVec S800000 32) (x3 : FVec Ideal S128x128 .f32)
    (x4 : FVec Ideal S128 .f32) :
    val_main_v46 (F := Ideal) x0 x1 x2 x3 x4
      = Cert.GcnSpec.hidden (val_main_v23 (F := Ideal) x0 x1 x2) (Cert.GcnShared.inv x2) (Cert.GcnShared.inv x1)
          x3 x4 := by
  funext i
  obtain ⟨r, f, rfl⟩ : ∃ (r : Fin 50000) (f : Fin 128), i = ix2 r f := ⟨i 0, i 1, eq_ix2 i⟩
  rw [val_main_v46_apply, val_main_v32_apply, val_main_v45_apply, val_main_v44_apply, row_v45, v43_eq, v31_eq,
    val_main_call2_v0_apply, val_main_call2_cst_apply]
  rfl

/-! ## The second layer -/

/-- The second aggregation, of the first layer's scaled result. -/
theorem v56_eq (x0 : FVec Ideal S50000x128 .f32) (x1 x2 : IVec S800000 32) (x3 : FVec Ideal S128x128 .f32)
    (x4 : FVec Ideal S128 .f32) :
    val_main_v56 (F := Ideal) x0 x1 x2 x3 x4
      = Cert.GcnShared.agg x1 x2 (val_main_v46 (F := Ideal) x0 x1 x2 x3 x4) := rfl

/-- The second layer: the dense half applied to the second aggregation. -/
theorem v64_eq (x0 : FVec Ideal S50000x128 .f32) (x1 x2 : IVec S800000 32) (x3 : FVec Ideal S128x128 .f32)
    (x4 : FVec Ideal S128 .f32) (x5 : FVec Ideal S128x128 .f32) (x6 : FVec Ideal S128 .f32) :
    val_main_v64 (F := Ideal) x0 x1 x2 x3 x4 x5 x6
      = Cert.GcnSpec.lin (val_main_v56 (F := Ideal) x0 x1 x2 x3 x4) (Cert.GcnShared.inv x2) x5 x6 := by
  funext i
  obtain ⟨r, f, rfl⟩ : ∃ (r : Fin 50000) (f : Fin 128), i = ix2 r f := ⟨i 0, i 1, eq_ix2 i⟩
  rw [lin_apply, val_main_v64_apply, val_main_v61_apply, val_main_v63_apply, val_main_v62_apply, col_v63]
  refine congrArg₂ (· + ·) (Finset.sum_congr rfl fun k _ => ?_) rfl
  rw [lidx_v61, ridx_v61, val_main_v60_apply, val_main_v59_apply, val_main_v58_apply, row_v59, v57_eq]
  rfl

/-! ## The whole network -/

/-- The reference's result is the specification's two-layer network, with the aggregation and the two factors the
    shared ones. -/
theorem result_eq (x0 : FVec Ideal S50000x128 .f32) (x1 x2 : IVec S800000 32) (x3 : FVec Ideal S128x128 .f32)
    (x4 : FVec Ideal S128 .f32) (x5 : FVec Ideal S128x128 .f32) (x6 : FVec Ideal S128 .f32) :
    Cert.ReferenceIdeal.Read.val_main_v64 (F := Ideal) x0 x1 x2 x3 x4 x5 x6
      = Cert.GcnSpec.out (Cert.GcnShared.agg x1 x2) (Cert.GcnShared.inv x1) (Cert.GcnShared.inv x2) x0 x3 x4 x5 x6 := by
  rw [v64_eq, v56_eq, v46_eq, v23_eq, v13_eq]
  rfl

/-- The same, for the result term the run of the reference names. -/
theorem res_eq (m : (ℓ : Loc nD τ sig) → Buf (Elt Ideal) ℓ) (c : Dev nD) :
    Cert.ReferenceIdeal.Value.res_main_v64 (F := Ideal) m c
      = Cert.GcnSpec.out (Cert.GcnShared.agg (m ((c.tc : Thread nD τ).loc main_arg1)) (m ((c.tc : Thread nD τ).loc main_arg2))) (Cert.GcnShared.inv (m ((c.tc : Thread nD τ).loc main_arg1))) (Cert.GcnShared.inv (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (Cert.ReferenceIdeal.Read.val_main_v64_eq m c).trans (result_eq _ _ _ _ _ _ _)

end Cert.ReferenceIdeal.RefValue

end
-- ==== Proof.lean ====
/-
  The certificate of a two-layer graph convolution kernel against its reference: `Cert.Claim`.

  Both programs compute, on extended reals, the same function of the arguments: with `sOut`, `sIn` the per-node
  factors `1 / sqrt (max 1 (edge count))` along the source and destination indices and `agg` the sum of source rows into
  destination rows over the edges, a layer is `(agg (h · sOut) · sIn) W + b`; the result is the second layer of the
  first layer's output clamped below at zero. The kernel's program does the aggregations and the factors on the host
  exactly as the reference does, and the dense half of each layer (the scalings, the 128 × 128 product, the bias, the
  clamp) in a row-tiled kernel whose 25 blocks are the restrictions of one function of the whole operands. A product
  accumulated from zero and the host's contraction are the same finite sum, a change of float format is the identity, so
  no law beyond reading both sides at an index joins them, and the finiteness of the inputs is not used.
-/
import proofs.«103812_j82755429859753_2_alg».proof.Defs
import proofs.«103812_j82755429859753_2_alg».proof.Proof.Gen.Kernel
import proofs.«103812_j82755429859753_2_alg».proof.Proof.Gen.Kernel.Frame
import proofs.«103812_j82755429859753_2_alg».proof.Proof.Gen.KernelIdeal
import proofs.«103812_j82755429859753_2_alg».proof.Proof.Gen.KernelIdeal.Frame
import proofs.«103812_j82755429859753_2_alg».proof.Proof.Gen.ReferenceIdeal
import proofs.«103812_j82755429859753_2_alg».proof.Proof.Gen.Pre_finite_inputs
import proofs.«103812_j82755429859753_2_alg».proof.Proof.Gen.ReferenceIdeal.Run
import proofs.«103812_j82755429859753_2_alg».proof.Proof.Gen.ReferenceIdeal.Read
import proofs.«103812_j82755429859753_2_alg».proof.Proof.KernelRun
import proofs.«103812_j82755429859753_2_alg».proof.Proof.KernelHost
import proofs.«103812_j82755429859753_2_alg».proof.Proof.KernelAlgebra
import proofs.«103812_j82755429859753_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network's function of the arguments in their result arrays. -/
theorem algebraic : Cert.algebraic_KernelIdeal_ReferenceIdeal := by
  intro m ρ m' ρ' _ hagree
  refine ⟨fun c => Cert.GcnSpec.out
      (Cert.GcnShared.agg (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.GcnShared.inv (m ((c.tc : Thread Cert.KernelIdeal.nD Cert.KernelIdeal.τ).loc Cert.KernelIdeal.main_arg1)))
      (Cert.GcnShared.inv (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans ((Cert.KernelIdeal.HostRead.result_eq m ρ c).trans
          (Cert.KernelIdeal.Algebra.network_eq _ _ _ _ _ _ _)), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.RefValue.res_eq m' c, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
